-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S256x128 : Shape := ⟨2, ![256, 128]⟩
abbrev S4000x128 : Shape := ⟨2, ![4000, 128]⟩
abbrev S4000x256 : Shape := ⟨2, ![4000, 256]⟩
abbrev S1x128 : Shape := ⟨2, ![1, 128]⟩

abbrev nBuf : Space → Nat
  | .hbm => 32
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .bf16⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S128x128, .bf16⟩
  | .hbm, ⟨29, _⟩ => ⟨S256x128, .bf16⟩
  | .hbm, ⟨30, _⟩ => ⟨S128, .f32⟩
  | .hbm, ⟨31, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .bf16⟩
  | .local _ .vmem, ⟨3, _⟩ => ⟨S4000x128, .bf16⟩
  | .local _ .vmem, ⟨4, _⟩ => ⟨S256x128, .bf16⟩
  | .local _ .vmem, ⟨5, _⟩ => ⟨S128x128, .bf16⟩
  | .local _ .vmem, ⟨6, _⟩ => ⟨S128, .f32⟩
  | .local _ .vmem, ⟨7, _⟩ => ⟨S128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bitsLt_bf16_f32 : FTy.bits .bf16 < FTy.bits .f32
  transposes_S128x128_S128x128_1_0 : S128x128.Transposes [1, 0] S128x128
  concatenates_S128x128_S128x128_S256x128_d0 : Shape.Concatenates [S128x128, S128x128] S256x128 0
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128_S128_0 : ∀ a, (![0] : Fin 1 → Nat) a + S128.size a ≤ S128.size a
  h_S128 : 0 < S128.numel
  shapeCasts_S128_S128 : S128.ShapeCasts S128
  concatenates_S4000x128_S4000x128_S4000x256_d1 : Shape.Concatenates [S4000x128, S4000x128] S4000x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S1x128 : S128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .bf16 = 32 ∨ (Rect.block (s := S100000x128) S4000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .bf16 = 32 ∨ (Rect.block (s := S256x128) S256x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S1600000x1, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S128x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S_, .f32⟩
  | .hbm, ⟨44, _⟩ => ⟨S100000x128, .f32⟩
  | .hbm, ⟨45, _⟩ => ⟨S100000x128, .i1⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KerHost.lean ====
/-
  What the host computes before the kernel's one region, read off the fold of its operations: the neighbour
  aggregation rounded to bf16 (the region's second operand), the two transposed weight matrices rounded to bf16 and
  stacked by rows (the third), the transposed second weight matrix rounded to bf16 (the fourth) and the sum of the two
  biases (the fifth). The neighbour aggregation `nbr` is the same composition of operations as the reference's: a
  row-gather of the embeddings at the edges' column ids, scaled by the edge values, scatter-added at the row ids.
-/
import proofs.«111094_j4982162063610_2_alg».proof.Proof.Gen.KernelIdeal.Frame
import Idealize.ShloMosaic.Lib.StableHlo.Run

noncomputable section

namespace Cert.KernelIdeal.KerHost

open Cert.KernelIdeal Cert.KernelIdeal.Gen Idealize.ShloMosaic Idealize.ShloMosaic.TcCoe Idealize.SL.Sem Idealize.ShloMosaic.StableHlo

variable {F : FTy → Type} [FloatOps F]

/-- The neighbour aggregation: row `adj_cols[e]` of the embeddings (a negative id counted from the end, then
    clamped by the gather), times `adj_vals[e]`, summed into row `adj_rows[e]` of a zero array. -/
def nbr (emb : (⟨S100000x128, .f32⟩ : BufTy).Contents (Elt F)) (vals : (⟨S1600000, .f32⟩ : BufTy).Contents (Elt F))
    (rows cols : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 emb
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

variable (m : (ℓ : Loc nD τ sig) → Buf (Elt F) ℓ)

attribute [local irreducible] Host.gather Host.scatterAdd in
/-- The region's second operand: the neighbour aggregation, rounded to bf16. -/
theorem V_nbr (c : Dev nD) :
    (V m c main_v13 : (⟨S100000x128, .bf16⟩ : BufTy).Contents (Elt F))
      = truncf .bf16 (nbr (m ((c : Thread nD τ).loc main_arg0)) (m ((c : Thread nD τ).loc main_arg1))
          (m ((c : Thread nD τ).loc main_arg6)) (m ((c : Thread nD τ).loc main_arg7))) bitsLt_bf16_f32 := by
  unfold nbr
  dsimp only [Gen.V, Gen.hostOps0]
  after_results_simp

/-- The region's fourth operand: the second weight matrix transposed, rounded to bf16. -/
theorem V_w2t (c : Dev nD) :
    (V m c main_v17 : (⟨S128x128, .bf16⟩ : BufTy).Contents (Elt F))
      = truncf .bf16 (transpose S128x128 [1, 0] (m ((c : Thread nD τ).loc main_arg4)) transposes_S128x128_S128x128_1_0) bitsLt_bf16_f32 := by
  dsimp only [Gen.V, Gen.hostOps0]
  after_results

/-- The region's third operand: the two transposed weight matrices, rounded to bf16, the first above the second. -/
theorem V_wcat (c : Dev nD) :
    (V m c main_v18 : (⟨S256x128, .bf16⟩ : BufTy).Contents (Elt F))
      = concatenate S256x128 0
          [⟨S128x128, truncf .bf16 (transpose S128x128 [1, 0] (m ((c : Thread nD τ).loc main_arg2)) transposes_S128x128_S128x128_1_0) bitsLt_bf16_f32⟩,
           ⟨S128x128, truncf .bf16 (transpose S128x128 [1, 0] (m ((c : Thread nD τ).loc main_arg4)) transposes_S128x128_S128x128_1_0) bitsLt_bf16_f32⟩]
          concatenates_S128x128_S128x128_S256x128_d0 := by
  dsimp only [Gen.V, Gen.hostOps0]
  after_results

/-- The region's fifth operand: the sum of the two biases. -/
theorem V_bsum (c : Dev nD) :
    (V m c main_v19 : (⟨S128, .f32⟩ : BufTy).Contents (Elt F))
      = addf (m ((c : Thread nD τ).loc main_arg3)) (m ((c : Thread nD τ).loc main_arg5)) := by
  dsimp only [Gen.V, Gen.hostOps0]
  after_results

end Cert.KernelIdeal.KerHost

end
-- ==== Proof.Layer.lean ====
/-
  One graph-convolution layer on the extended reals, entry by entry. With E the node embeddings [100000, 128], A the
  aggregated neighbour embeddings [100000, 128], W1, W2 two [128, 128] weight matrices and b1, b2 two biases, a
  dense layer is  lin x W b (p, q) = ∑ k, x (p, k) · W (q, k) + b q  (x · Wᵀ + b), and the layer's entry (p, q) is

      leaky ( self + neighbour + interact ),   self = lin E W1 b1,  neighbour = lin A W2 b2,
                                               interact = lin (neighbour ∘ E) W2 b2   (∘ the entrywise product).

  Two arrangements of the same entry are stated. The first sums  (self) + (neighbour)  each with its own bias. The
  second sums the two products first and the two biases first:  (E·W1ᵀ + A·W2ᵀ) + (b1 + b2). They are equal because
  addition of extended reals is commutative and associative (no cancellation and no distributivity is used, so the
  infinities need no care):  (a + b) + (c + d) = (a + c) + (b + d).
-/
import Idealize.ShloMosaic.Lib.ValueIdx
import Idealize.ShloMosaic.PureOps.Ideal.Laws

noncomputable section

open scoped BigOperators

namespace Cert.Layer

open Idealize.ShloMosaic Idealize.ShloMosaic.ValueIdx

/-- The node arrays' shape, a weight matrix's and a bias's. -/
abbrev Rows : Shape := ⟨2, ![100000, 128]⟩
abbrev Sq : Shape := ⟨2, ![128, 128]⟩
abbrev Len : Shape := ⟨1, ![128]⟩

/-- The leaky ReLU of slope 0.2 (the float literal kept as its binary word, the same on both sides): x where
    x ≥ 0, else 0.2 · x. -/
def leaky (x : EReal) : EReal :=
  Scalar.select (FloatOps.cmpf (F := Ideal) (φ := .f32) .oge x (Ideal.ofBits .f32 0x00000000#32)) x
    (Ideal.ofBits .f32 0x3E4CCCCD#32 * x)

/-- A dense layer x · Wᵀ + b at entry (p, q). -/
def lin (x : Rows.Idx → EReal) (W : Sq.Idx → EReal) (b : Len.Idx → EReal) (p : Fin 100000) (q : Fin 128) : EReal :=
  (∑ k : Fin 128, x (ix2 p k) * W (ix2 q k)) + b (ix1 q)

variable (E A : Rows.Idx → EReal) (W1 : Sq.Idx → EReal) (b1 : Len.Idx → EReal) (W2 : Sq.Idx → EReal) (b2 : Len.Idx → EReal)

/-- The interaction term at (p, q): the neighbour term times the embeddings, through the second layer. -/
def interact (p : Fin 100000) (q : Fin 128) : EReal :=
  (∑ k : Fin 128, (lin A W2 b2 p k * E (ix2 p k)) * W2 (ix2 q k)) + b2 (ix1 q)

/-- The layer's entry, each dense layer with its own bias. -/
def entry (p : Fin 100000) (q : Fin 128) : EReal :=
  leaky ((lin E W1 b1 p q + lin A W2 b2 p q) + interact E A W2 b2 p q)

/-- The same entry with the two products summed first and the two biases summed first. -/
def entryFused (p : Fin 100000) (q : Fin 128) : EReal :=
  leaky ((((∑ k : Fin 128, E (ix2 p k) * W1 (ix2 q k)) + ∑ k : Fin 128, A (ix2 p k) * W2 (ix2 q k)) + (b1 (ix1 q) + b2 (ix1 q)))
    + interact E A W2 b2 p q)

/-- The two arrangements agree: a sum of four terms regrouped. -/
theorem entryFused_eq (p : Fin 100000) (q : Fin 128) : entryFused E A W1 b1 W2 b2 p q = entry E A W1 b1 W2 b2 p q := by
  unfold entryFused entry lin
  rw [add_add_add_comm]

/-- The whole result array. -/
def layer : Rows.Idx → EReal := fun i => entry E A W1 b1 W2 b2 (i 0) (i 1)

theorem layer_apply (p : Fin 100000) (q : Fin 128) : layer E A W1 b1 W2 b2 (ix2 p q) = entry E A W1 b1 W2 b2 p q := rfl

end Cert.Layer

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.LibConcatHalves.lean ====
/-
  Two rank-2 arrays joined along one axis, read in either half, and a sum over the joined axis split at the seam.
  Joined by columns, [M, n₁] and [M, n₂] give [M, n₁ + n₂]: column k < n₁ is the first array's column k and column
  n₁ + k is the second array's column k. Joined by rows, [n₁, N] and [n₂, N] give [n₁ + n₂, N] in the same way. A sum
  over the joined axis is therefore the sum over the first piece's coordinates plus the sum over the second's
  (in any commutative monoid: only the order of the terms changes).
-/
import Idealize.ShloMosaic.Lib.ValueIdx
import Idealize.ShloMosaic.Lib.Pipeline.Value

noncomputable section

open scoped BigOperators

namespace Cert.Lib.ConcatHalves

open Idealize.ShloMosaic Idealize.ShloMosaic.ValueIdx

/-- A sum over `Fin T`, `T = n₁ + n₂`, is the sum over the first `n₁` positions plus the sum over the last `n₂`. -/
theorem sum_split {β : Type*} [AddCommMonoid β] {n₁ n₂ T : ℕ} (hT : T = n₁ + n₂) (f : Fin T → β) :
    ∑ k : Fin T, f k = (∑ k : Fin n₁, f ⟨k.val, by omega⟩) + ∑ k : Fin n₂, f ⟨n₁ + k.val, by omega⟩ := by
  subst hT
  rw [Fin.sum_univ_add]
  rfl

section Cols
variable {α : Type} {M n₁ n₂ T : ℕ} (a : (⟨2, ![M, n₁]⟩ : Shape).Idx → α) (b : (⟨2, ![M, n₂]⟩ : Shape).Idx → α)
  (h : Shape.Concatenates [⟨2, ![M, n₁]⟩, ⟨2, ![M, n₂]⟩] ⟨2, ![M, T]⟩ 1)

/-- Joined by columns, a column of the first half is the first array's. -/
theorem cols_left (p : Fin M) (k : Fin n₁) (k' : Fin T) (hk : k'.val = k.val) :
    concatenate ⟨2, ![M, T]⟩ 1 [⟨⟨2, ![M, n₁]⟩, a⟩, ⟨⟨2, ![M, n₂]⟩, b⟩] h (ix2 p k') = a (ix2 p k) :=
  concatenate_pair_apply_left 1 a b h (ix2 p k') rfl (ix2 p k)
    (fun c => match c with | ⟨0, _⟩ => rfl | ⟨1, _⟩ => hk.symm)

/-- Joined by columns, column `n₁ + k` is the second array's column `k`. -/
theorem cols_right (p : Fin M) (k : Fin n₂) (k' : Fin T) (hk : k'.val = n₁ + k.val) :
    concatenate ⟨2, ![M, T]⟩ 1 [⟨⟨2, ![M, n₁]⟩, a⟩, ⟨⟨2, ![M, n₂]⟩, b⟩] h (ix2 p k') = b (ix2 p k) :=
  concatenate_pair_apply_right 1 a b h (ix2 p k') rfl rfl (ix2 p k)
    (fun c hc => match c, hc with | ⟨0, _⟩, _ => rfl | ⟨1, _⟩, hc => absurd rfl hc)
    (by show k.val + n₁ = k'.val; omega)

/-- The same with the column spelt by its position (the form a sum over the first half meets). -/
theorem cols_left' (p : Fin M) (k : Fin n₁) (hk : k.val < T) :
    concatenate ⟨2, ![M, T]⟩ 1 [⟨⟨2, ![M, n₁]⟩, a⟩, ⟨⟨2, ![M, n₂]⟩, b⟩] h (ix2 p (⟨k.val, hk⟩ : Fin T)) = a (ix2 p k) :=
  cols_left a b h p k ⟨k.val, hk⟩ rfl

/-- The same with the column spelt by its position (the form a sum over the second half meets). -/
theorem cols_right' (p : Fin M) (k : Fin n₂) (hk : n₁ + k.val < T) :
    concatenate ⟨2, ![M, T]⟩ 1 [⟨⟨2, ![M, n₁]⟩, a⟩, ⟨⟨2, ![M, n₂]⟩, b⟩] h (ix2 p (⟨n₁ + k.val, hk⟩ : Fin T)) = b (ix2 p k) :=
  cols_right a b h p k ⟨n₁ + k.val, hk⟩ rfl

end Cols

section Rows
variable {α : Type} {N n₁ n₂ T : ℕ} (u : (⟨2, ![n₁, N]⟩ : Shape).Idx → α) (v : (⟨2, ![n₂, N]⟩ : Shape).Idx → α)
  (h : Shape.Concatenates [⟨2, ![n₁, N]⟩, ⟨2, ![n₂, N]⟩] ⟨2, ![T, N]⟩ 0)

/-- Joined by rows, a row of the first half is the first array's. -/
theorem rows_top (k : Fin n₁) (k' : Fin T) (hk : k'.val = k.val) (q : Fin N) :
    concatenate ⟨2, ![T, N]⟩ 0 [⟨⟨2, ![n₁, N]⟩, u⟩, ⟨⟨2, ![n₂, N]⟩, v⟩] h (ix2 k' q) = u (ix2 k q) :=
  concatenate_pair_apply_left 0 u v h (ix2 k' q) rfl (ix2 k q)
    (fun c => match c with | ⟨0, _⟩ => hk.symm | ⟨1, _⟩ => rfl)

/-- Joined by rows, row `n₁ + k` is the second array's row `k`. -/
theorem rows_bottom (k : Fin n₂) (k' : Fin T) (hk : k'.val = n₁ + k.val) (q : Fin N) :
    concatenate ⟨2, ![T, N]⟩ 0 [⟨⟨2, ![n₁, N]⟩, u⟩, ⟨⟨2, ![n₂, N]⟩, v⟩] h (ix2 k' q) = v (ix2 k q) :=
  concatenate_pair_apply_right 0 u v h (ix2 k' q) rfl rfl (ix2 k q)
    (fun c hc => match c, hc with | ⟨0, _⟩, hc => absurd rfl hc | ⟨1, _⟩, _ => rfl)
    (by show k.val + n₁ = k'.val; omega)

/-- The same with the row spelt by its position. -/
theorem rows_top' (k : Fin n₁) (hk : k.val < T) (q : Fin N) :
    concatenate ⟨2, ![T, N]⟩ 0 [⟨⟨2, ![n₁, N]⟩, u⟩, ⟨⟨2, ![n₂, N]⟩, v⟩] h (ix2 (⟨k.val, hk⟩ : Fin T) q) = u (ix2 k q) :=
  rows_top u v h k ⟨k.val, hk⟩ rfl q

/-- The same with the row spelt by its position. -/
theorem rows_bottom' (k : Fin n₂) (hk : n₁ + k.val < T) (q : Fin N) :
    concatenate ⟨2, ![T, N]⟩ 0 [⟨⟨2, ![n₁, N]⟩, u⟩, ⟨⟨2, ![n₂, N]⟩, v⟩] h (ix2 (⟨n₁ + k.val, hk⟩ : Fin T) q) = v (ix2 k q) :=
  rows_bottom u v h k ⟨n₁ + k.val, hk⟩ rfl q

end Rows

end Cert.Lib.ConcatHalves

end
-- ==== Proof.KerPay.lean ====
/-
  The kernel body's arithmetic at one entry. On a block of 4000 rows the body computes, from the block x0 of the
  embeddings, the block x1 of the neighbour aggregation, the stacked weights x2 [256, 128], the second weights x3
  [128, 128], the summed biases x4 and the second bias x5:

      fused     = [x0 | x1] · x2 + x4                       (one product over 256 = 128 + 128 columns)
      neighbour = x1 · x3 + x5
      interact  = (neighbour ∘ x0) · x3 + x5
      result    = leaky (fused + interact).

  Each of the three is a matrix product into a zero accumulator plus a bias spread over the rows (`linB`), and at the
  ideal values, where rounding to bf16 is the identity, entry (p, q) of such a term is ∑ k, x (p, k) · y (k, q) + b q.
  The product over the 256 joined columns is the sum over the first 128 (the embeddings' columns against the upper
  half of x2) plus the sum over the last 128 (the neighbours' columns against the lower half).
-/
import proofs.«111094_j4982162063610_2_alg».proof.Proof.Gen.KernelIdeal.Skeleton
import proofs.«111094_j4982162063610_2_alg».proof.Proof.Layer
import proofs.«111094_j4982162063610_2_alg».proof.Proof.LibPlainDot
import proofs.«111094_j4982162063610_2_alg».proof.Proof.LibConcatHalves
import Idealize.ShloMosaic.Lib.ValueLayout
import Idealize.ShloMosaic.Lib.Pipeline.Value

noncomputable section

open scoped BigOperators

namespace Cert.KernelIdeal.KerPay

open Cert.KernelIdeal Cert.KernelIdeal.Gen Idealize.ShloMosaic Idealize.ShloMosaic.ValueIdx

/-- The body's two kinds of matrix product have the plain dimension numbers. -/
theorem dot256_plain : dot_S4000x256_S256x128_S4000x128_1_0_0_1_n_n = DotDims.plain 4000 256 128 := rfl
theorem dot128_plain : dot_S4000x128_S128x128_S4000x128_1_0_0_1_n_n = DotDims.plain 4000 128 128 := rfl

section AnyValues
variable {F : FTy → Type} [FloatOps F]

/-- A dense layer of the body: a product into the zero accumulator plus a bias spread over the 4000 rows. -/
def linB {K : ℕ} {φ₁ φ₂ : FTy} (D : DotDims ⟨2, ![4000, K]⟩ ⟨2, ![K, 128]⟩ S4000x128) (x : FVec F ⟨2, ![4000, K]⟩ φ₁)
    (y : FVec F ⟨2, ![K, 128]⟩ φ₂) (b : FVec F S128 .f32) : FVec F S4000x128 .f32 :=
  addf (matmul D none x y (constant S4000x128 .f32 0x00000000#32))
    (broadcastTo S4000x128 (shapeCast S1x128 b shapeCasts_S128_S1x128) broadcasts_S1x128_S4000x128)

/-- The body's leaky ReLU: x where x ≥ 0, else 0.2 · x (the two literals as splat scalars). -/
def leakyV (x : FVec F S4000x128 .f32) : FVec F S4000x128 .f32 :=
  select (cmpf .oge x (broadcast S4000x128 (Scalar.ofBits .f32 0x00000000#32))) x
    (mulf (broadcast S4000x128 (Scalar.ofBits .f32 0x3E4CCCCD#32)) x)

/-- The body's stored value is the leaky ReLU of the fused layer plus the interaction layer. -/
theorem pay_eq (x0 : Vec F S4000x128 .f32) (x1 : Vec F S4000x128 .bf16) (x5 x4 : Vec F S128 .f32) (x2 : Vec F S256x128 .bf16)
    (x3 : Vec F S128x128 .bf16) :
    k0_pay1 x0 x1 x5 x4 x2 x3 x3
      = leakyV (addf
          (linB dot_S4000x256_S256x128_S4000x128_1_0_0_1_n_n
            (concatenate S4000x256 1 [⟨S4000x128, truncf .bf16 x0 bitsLt_bf16_f32⟩, ⟨S4000x128, shapeCast S4000x128 x1 shapeCasts_S4000x128_S4000x128⟩]
              concatenates_S4000x128_S4000x128_S4000x256_d1)
            (shapeCast S256x128 x2 shapeCasts_S256x128_S256x128) (shapeCast S128 x4 shapeCasts_S128_S128))
          (linB dot_S4000x128_S128x128_S4000x128_1_0_0_1_n_n
            (truncf .bf16 (mulf (linB dot_S4000x128_S128x128_S4000x128_1_0_0_1_n_n (shapeCast S4000x128 x1 shapeCasts_S4000x128_S4000x128)
              (shapeCast S128x128 x3 shapeCasts_S128x128_S128x128) x5) x0) bitsLt_bf16_f32)
            (shapeCast S128x128 x3 shapeCasts_S128x128_S128x128) x5)) := rfl

end AnyValues

/-- A dense layer of the body at entry (p, q), at the ideal values. -/
theorem linB_apply {K : ℕ} {φ₁ φ₂ : FTy} (D : DotDims ⟨2, ![4000, K]⟩ ⟨2, ![K, 128]⟩ S4000x128) (hD : D = DotDims.plain 4000 K 128)
    (x : FVec Ideal ⟨2, ![4000, K]⟩ φ₁) (y : FVec Ideal ⟨2, ![K, 128]⟩ φ₂) (b : FVec Ideal S128 .f32) (p : Fin 4000) (q : Fin 128) :
    linB D x y b (ix2 p q) = (∑ k : Fin K, x (ix2 p k) * y (ix2 k q)) + b (ix1 q) := by
  unfold linB
  rw [addf_apply, Cert.Lib.PlainDot.matmul_zero_apply D hD, broadcastTo_1b_ab_apply, shapeCast_a_1a_apply]

/-- The body's leaky ReLU reads entrywise. -/
theorem leakyV_apply (x : FVec Ideal S4000x128 .f32) (j : S4000x128.Idx) : leakyV x j = Cert.Layer.leaky (x j) := rfl

/-- The value the body stores, at entry (p, q) of the block, at the ideal values. -/
theorem pay_apply (x0 : Vec Ideal S4000x128 .f32) (x1 : Vec Ideal S4000x128 .bf16) (x5 x4 : Vec Ideal S128 .f32)
    (x2 : Vec Ideal S256x128 .bf16) (x3 : Vec Ideal S128x128 .bf16) (p : Fin 4000) (q : Fin 128) :
    k0_pay1 x0 x1 x5 x4 x2 x3 x3 (ix2 p q)
      = Cert.Layer.leaky
          ((((∑ k : Fin 128, x0 (ix2 p k) * x2 (ix2 (⟨k.val, by omega⟩ : Fin 256) q))
              + ∑ k : Fin 128, x1 (ix2 p k) * x2 (ix2 (⟨128 + k.val, by omega⟩ : Fin 256) q)) + x4 (ix1 q))
            + ((∑ k : Fin 128, (((∑ l : Fin 128, x1 (ix2 p l) * x3 (ix2 l k)) + x5 (ix1 k)) * x0 (ix2 p k)) * x3 (ix2 k q)) + x5 (ix1 q))) := by
  rw [pay_eq, leakyV_apply, addf_apply, linB_apply _ dot256_plain, linB_apply _ dot128_plain]
  simp only [shapeCast_self, truncf_apply, mulf_apply, linB_apply _ dot128_plain]
  rw [Cert.Lib.ConcatHalves.sum_split (n₁ := 128) (n₂ := 128) (T := 256) rfl]
  simp only [Cert.Lib.ConcatHalves.cols_left', Cert.Lib.ConcatHalves.cols_right', truncf_apply]

/-- The value the body stores is the layer's entry, once each loaded block is read where it sits in its array: the
    row-blocked operands `x0`, `x1` hold rows `r + p` of the embeddings `E` and the aggregation `A`; the stacked weights
    `x2` hold `W1` transposed above `W2` transposed; `x3` holds `W2` transposed; `x4` the summed biases; `x5` the second
    bias. The body's arrangement (the products summed first, the biases summed first) is then regrouped. -/
theorem point (E A : Cert.Layer.Rows.Idx → EReal) (W1 : Cert.Layer.Sq.Idx → EReal) (b1 : Cert.Layer.Len.Idx → EReal)
    (W2 : Cert.Layer.Sq.Idx → EReal) (b2 : Cert.Layer.Len.Idx → EReal)
    (x0 : Vec Ideal S4000x128 .f32) (x1 : Vec Ideal S4000x128 .bf16) (x5 x4 : Vec Ideal S128 .f32)
    (x2 : Vec Ideal S256x128 .bf16) (x3 : Vec Ideal S128x128 .bf16) (r : ℕ)
    (h0 : ∀ (p : Fin 4000) (k : Fin 128) (i : Cert.Layer.Rows.Idx), (i 0).val = r + p.val → (i 1).val = k.val → x0 (ix2 p k) = E i)
    (h1 : ∀ (p : Fin 4000) (k : Fin 128) (i : Cert.Layer.Rows.Idx), (i 0).val = r + p.val → (i 1).val = k.val → x1 (ix2 p k) = A i)
    (h2u : ∀ (k q : Fin 128), x2 (ix2 (⟨k.val, by omega⟩ : Fin 256) q) = W1 (ix2 q k))
    (h2l : ∀ (k q : Fin 128), x2 (ix2 (⟨128 + k.val, by omega⟩ : Fin 256) q) = W2 (ix2 q k))
    (h3 : ∀ (l k : Fin 128), x3 (ix2 l k) = W2 (ix2 k l))
    (h4 : ∀ q : Fin 128, x4 (ix1 q) = b1 (ix1 q) + b2 (ix1 q))
    (h5 : ∀ q : Fin 128, x5 (ix1 q) = b2 (ix1 q))
    (p : Fin 4000) (q : Fin 128) (i : Cert.Layer.Rows.Idx) (hi0 : (i 0).val = r + p.val) (hi1 : (i 1).val = q.val) :
    k0_pay1 x0 x1 x5 x4 x2 x3 x3 (ix2 p q) = Cert.Layer.layer E A W1 b1 W2 b2 i := by
  have hr : r + p.val < 100000 := hi0 ▸ (i 0).isLt
  obtain rfl : i = ix2 (⟨r + p.val, hr⟩ : Fin 100000) q := funext fun a => Fin.ext (by
    match a with
    | ⟨0, _⟩ => exact hi0
    | ⟨1, _⟩ => exact hi1)
  have e0 : ∀ k : Fin 128, x0 (ix2 p k) = E (ix2 (⟨r + p.val, hr⟩ : Fin 100000) k) := fun k => h0 p k _ rfl rfl
  have e1 : ∀ k : Fin 128, x1 (ix2 p k) = A (ix2 (⟨r + p.val, hr⟩ : Fin 100000) k) := fun k => h1 p k _ rfl rfl
  rw [Cert.Layer.layer_apply, ← Cert.Layer.entryFused_eq, pay_apply]
  unfold Cert.Layer.entryFused Cert.Layer.interact Cert.Layer.lin
  simp only [e0, e1, h2u, h2l, h3, h4, h5]

end Cert.KernelIdeal.KerPay

end
-- ==== Proof.KerReads.lean ====
/-
  Where each of the kernel's blocks sits in its array. The grid has 25 points; at point t the two row-blocked
  operands (the embeddings and the neighbour aggregation) and the result are at block row t, that is rows
  4000·t … 4000·t + 3999, all 128 columns; the stacked weights, the second weights and the two bias vectors are
  resident: their one block is the whole array. A block's element (p, k) is therefore the array's element
  (4000·t + p, k), or (p, k) itself for a resident operand.
-/
import proofs.«111094_j4982162063610_2_alg».proof.Proof.Gen.KernelIdeal.Frame
import Idealize.ShloMosaic.Lib.Pipeline.Value
import Idealize.ShloMosaic.Lib.ValueLayout

noncomputable section

open scoped BigOperators

namespace Cert.KernelIdeal.KerReads

open Cert.KernelIdeal Cert.KernelIdeal.Gen Idealize.ShloMosaic Idealize.ShloMosaic.TcCoe Idealize.SL.Sem
open Idealize.ShloMosaic.ValueIdx
open Idealize.ShloMosaic.Pipeline (Dat)

-- the host's fold stays sealed here: an array is read through a block, never computed
attribute [local irreducible] Idealize.ShloMosaic.StableHlo.after

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 25 points: the two row-blocked inputs and the output sit at block row t,
    column block 0; the four resident operands at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

/-! ## A block of an arbitrary array, read where it sits

Stated over an arbitrary array `X`, so that nothing about how the host computed the array is ever opened. -/

/-- Element (p, k) of block t of a row-blocked f32 array is the array's element (4000·t + p, k). -/
theorem read0 (X : S100000x128.Idx → Elt Ideal .f32) (t : Fin cfg0.N) (p : Fin 4000) (k : Fin 128) (i : S100000x128.Idx)
    (hi0 : (i 0).val = t.val * 4000 + p.val) (hi1 : (i 1).val = k.val) :
    ((cfg0.win 0).blk t).view.read (Elt Ideal) X (ix2 p k) = X i := by
  obtain ⟨e0, e1, -⟩ := idx_facts t
  show X (((cfg0.win 0).blk t).view.emb (ix2 p k)) = X i
  refine congrArg X (funext fun a => Fin.ext ?_)
  match a with
  | ⟨0, _⟩ => show win0_0.index t (0 : Fin 2) * 4000 + 1 * p.val = (i 0).val; omega
  | ⟨1, _⟩ => show win0_0.index t (1 : Fin 2) * 128 + 1 * k.val = (i 1).val; omega

/-- The same for the row-blocked bf16 array. -/
theorem read1 (X : S100000x128.Idx → Elt Ideal .bf16) (t : Fin cfg0.N) (p : Fin 4000) (k : Fin 128) (i : S100000x128.Idx)
    (hi0 : (i 0).val = t.val * 4000 + p.val) (hi1 : (i 1).val = k.val) :
    ((cfg0.win 1).blk t).view.read (Elt Ideal) X (ix2 p k) = X i := by
  obtain ⟨-, -, e0, e1, -⟩ := idx_facts t
  show X (((cfg0.win 1).blk t).view.emb (ix2 p k)) = X i
  refine congrArg X (funext fun a => Fin.ext ?_)
  match a with
  | ⟨0, _⟩ => show win0_1.index t (0 : Fin 2) * 4000 + 1 * p.val = (i 0).val; omega
  | ⟨1, _⟩ => show win0_1.index t (1 : Fin 2) * 128 + 1 * k.val = (i 1).val; omega

/-- A resident [256, 128] array's one block is the array. -/
theorem read2 (X : S256x128.Idx → Elt Ideal .bf16) (t : Fin cfg0.N) (p : Fin 256) (k : Fin 128) (i : S256x128.Idx)
    (hi0 : (i 0).val = 0 + p.val) (hi1 : (i 1).val = k.val) :
    ((cfg0.win 2).blk t).view.read (Elt Ideal) X (ix2 p k) = X i := by
  obtain ⟨-, -, -, -, e0, e1, -⟩ := idx_facts t
  show X (((cfg0.win 2).blk t).view.emb (ix2 p k)) = X i
  refine congrArg X (funext fun a => Fin.ext ?_)
  match a with
  | ⟨0, _⟩ => show win0_2.index t (0 : Fin 2) * 256 + 1 * p.val = (i 0).val; omega
  | ⟨1, _⟩ => show win0_2.index t (1 : Fin 2) * 128 + 1 * k.val = (i 1).val; omega

/-- A resident [128, 128] array's one block is the array. -/
theorem read3 (X : S128x128.Idx → Elt Ideal .bf16) (t : Fin cfg0.N) (p : Fin 128) (k : Fin 128) (i : S128x128.Idx)
    (hi0 : (i 0).val = 0 + p.val) (hi1 : (i 1).val = k.val) :
    ((cfg0.win 3).blk t).view.read (Elt Ideal) X (ix2 p k) = X i := by
  obtain ⟨-, -, -, -, -, -, e0, e1, -⟩ := idx_facts t
  show X (((cfg0.win 3).blk t).view.emb (ix2 p k)) = X i
  refine congrArg X (funext fun a => Fin.ext ?_)
  match a with
  | ⟨0, _⟩ => show win0_3.index t (0 : Fin 2) * 128 + 1 * p.val = (i 0).val; omega
  | ⟨1, _⟩ => show win0_3.index t (1 : Fin 2) * 128 + 1 * k.val = (i 1).val; omega

/-- A resident [128] array's one block is the array (the fifth operand). -/
theorem read4 (X : S128.Idx → Elt Ideal .f32) (t : Fin cfg0.N) (q : Fin 128) :
    ((cfg0.win 4).blk t).view.read (Elt Ideal) X (ix1 q) = X (ix1 q) := by
  obtain ⟨-, -, -, -, -, -, -, -, e0, -⟩ := idx_facts t
  show X (((cfg0.win 4).blk t).view.emb (ix1 q)) = X (ix1 q)
  refine congrArg X (funext fun a => Fin.ext ?_)
  match a with
  | ⟨0, _⟩ => show win0_4.index t (0 : Fin 1) * 128 + 1 * q.val = q.val; omega

/-- A resident [128] array's one block is the array (the sixth operand). -/
theorem read5 (X : S128.Idx → Elt Ideal .f32) (t : Fin cfg0.N) (q : Fin 128) :
    ((cfg0.win 5).blk t).view.read (Elt Ideal) X (ix1 q) = X (ix1 q) := by
  obtain ⟨-, -, -, -, -, -, -, -, -, e0, -⟩ := idx_facts t
  show X (((cfg0.win 5).blk t).view.emb (ix1 q)) = X (ix1 q)
  refine congrArg X (funext fun a => Fin.ext ?_)
  match a with
  | ⟨0, _⟩ => show win0_5.index t (0 : Fin 1) * 128 + 1 * q.val = q.val; omega

/-! ## The kernel's input blocks, read where they sit in the arrays the region finds -/

/-- Rows 4000·t + p of the embeddings. -/
theorem blk0 (c : Dev nD) (t : Fin cfg0.N) (p : Fin 4000) (k : Fin 128) (i : S100000x128.Idx)
    (hi0 : (i 0).val = t.val * 4000 + p.val) (hi1 : (i 1).val = k.val) :
    iblk m c 0 t (ix2 p k) = V m c main_arg0 i := by
  unfold iblk
  exact read0 (V m c main_arg0) t p k i hi0 hi1

/-- Rows 4000·t + p of the neighbour aggregation. -/
theorem blk1 (c : Dev nD) (t : Fin cfg0.N) (p : Fin 4000) (k : Fin 128) (i : S100000x128.Idx)
    (hi0 : (i 0).val = t.val * 4000 + p.val) (hi1 : (i 1).val = k.val) :
    iblk m c 1 t (ix2 p k) = V m c main_v13 i := by
  unfold iblk
  exact read1 (V m c main_v13) t p k i hi0 hi1

/-- The whole stacked weights. -/
theorem blk2 (c : Dev nD) (t : Fin cfg0.N) (k : Fin 256) (q : Fin 128) :
    iblk m c 2 t (ix2 k q) = V m c main_v18 (ix2 k q) := by
  unfold iblk
  exact read2 (V m c main_v18) t k q (ix2 k q) (by show k.val = 0 + k.val; omega) rfl

/-- The whole second weights. -/
theorem blk3 (c : Dev nD) (t : Fin cfg0.N) (l : Fin 128) (k : Fin 128) :
    iblk m c 3 t (ix2 l k) = V m c main_v17 (ix2 l k) := by
  unfold iblk
  exact read3 (V m c main_v17) t l k (ix2 l k) (by show l.val = 0 + l.val; omega) rfl

/-- The whole summed bias. -/
theorem blk4 (c : Dev nD) (t : Fin cfg0.N) (q : Fin 128) :
    iblk m c 4 t (ix1 q) = V m c main_v19 (ix1 q) := by
  unfold iblk
  exact read4 (V m c main_v19) t q

/-- The whole second bias. -/
theorem blk5 (c : Dev nD) (t : Fin cfg0.N) (q : Fin 128) :
    iblk m c 5 t (ix1 q) = V m c main_arg5 (ix1 q) := by
  unfold iblk
  exact read5 (V m c main_arg5) t q

end Cert.KernelIdeal.KerReads

end
-- ==== Proof.KerBlocks.lean ====
/-
  From the kernel's blocks to its result array. The grid has 25 points; at point t the body is given rows
  4000·t … 4000·t + 3999 of the embeddings and of the neighbour aggregation, the whole stacked weights, the whole
  second weights and the two bias vectors, and writes rows 4000·t … 4000·t + 3999 of the result. So what point t
  writes back is block t of a single function of the arrays as the region finds them, the layer `Layer.layer`; the 25
  blocks cover the 100000 rows (row r lies in block r / 4000); hence the result array after the run is that layer.
-/
import proofs.«111094_j4982162063610_2_alg».proof.Proof.Gen.KernelIdeal.Value
import proofs.«111094_j4982162063610_2_alg».proof.Proof.KerHost
import proofs.«111094_j4982162063610_2_alg».proof.Proof.KerPay
import proofs.«111094_j4982162063610_2_alg».proof.Proof.KerReads
import Idealize.ShloMosaic.Lib.Pipeline.Value
import Idealize.ShloMosaic.Lib.ValueLayout

noncomputable section

open scoped BigOperators

namespace Cert.KernelIdeal.KerBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.KerReads

-- the host's fold and its two whole-array operations stay sealed here: only their names are compared
attribute [local irreducible] Idealize.ShloMosaic.StableHlo.after Idealize.ShloMosaic.Host.gather Idealize.ShloMosaic.Host.scatterAdd

variable (m : (ℓ : Loc nD τ sig) → Buf (Elt Ideal) ℓ) (ρ : Dev nD → PrngReg)

/-! ## The window arrays as the region finds them, at an entry -/

theorem emb_at (c : Dev nD) (i : S100000x128.Idx) : V m c main_arg0 i = (m ((c : Thread nD τ).loc main_arg0)) i := by rw [V_main_arg0]

/-- Rounding to bf16 is the identity on extended reals: the second operand is the neighbour aggregation. -/
theorem nbr_at (c : Dev nD) (i : S100000x128.Idx) :
    V m c main_v13 i = KerHost.nbr (F := Ideal) (m ((c : Thread nD τ).loc main_arg0)) (m ((c : Thread nD τ).loc main_arg1)) (m ((c : Thread nD τ).loc main_arg6)) (m ((c : Thread nD τ).loc main_arg7)) i := by
  rw [KerHost.V_nbr, truncf_apply]

/-- The upper half of the stacked weights is the first weight matrix transposed. -/
theorem w_upper (c : Dev nD) (k q : Fin 128) :
    V m c main_v18 (ix2 (⟨k.val, by omega⟩ : Fin 256) q) = (m ((c : Thread nD τ).loc main_arg2)) (ix2 q k) := by
  rw [KerHost.V_wcat, Cert.Lib.ConcatHalves.rows_top', truncf_apply, transpose_ix2_apply]

/-- The lower half of the stacked weights is the second weight matrix transposed. -/
theorem w_lower (c : Dev nD) (k q : Fin 128) :
    V m c main_v18 (ix2 (⟨128 + k.val, by omega⟩ : Fin 256) q) = (m ((c : Thread nD τ).loc main_arg4)) (ix2 q k) := by
  rw [KerHost.V_wcat, Cert.Lib.ConcatHalves.rows_bottom', truncf_apply, transpose_ix2_apply]

/-- The fourth operand is the second weight matrix transposed. -/
theorem w2t_at (c : Dev nD) (l k : Fin 128) : V m c main_v17 (ix2 l k) = (m ((c : Thread nD τ).loc main_arg4)) (ix2 k l) := by
  rw [KerHost.V_w2t, truncf_apply, transpose_ix2_apply]

/-- The fifth operand is the sum of the two biases. -/
theorem bsum_at (c : Dev nD) (q : Fin 128) :
    V m c main_v19 (ix1 q)
      = addf (F := Ideal) (s := S128) (φ := .f32) (m ((c : Thread nD τ).loc main_arg3)) (m ((c : Thread nD τ).loc main_arg5)) (ix1 q) := by
  rw [KerHost.V_bsum]

theorem b2_at (c : Dev nD) (q : Fin 128) : V m c main_arg5 (ix1 q) = (m ((c : Thread nD τ).loc main_arg5)) (ix1 q) := by rw [V_main_arg5]

/-! ## What a point writes back, the cover, the result array -/

/-- The result array as a single function of the launch contents: the layer of the embeddings, the neighbour aggregation,
    the two weight matrices and the two biases. -/
abbrev G (c : Dev nD) : S100000x128.Idx → Elt Ideal .f32 :=
  Cert.Layer.layer (m ((c : Thread nD τ).loc main_arg0))
    (KerHost.nbr (F := Ideal) (m ((c : Thread nD τ).loc main_arg0)) (m ((c : Thread nD τ).loc main_arg1)) (m ((c : Thread nD τ).loc main_arg6)) (m ((c : Thread nD τ).loc main_arg7)))
    (m ((c : Thread nD τ).loc main_arg2)) (m ((c : Thread nD τ).loc main_arg3)) (m ((c : Thread nD τ).loc main_arg4)) (m ((c : Thread nD τ).loc main_arg5))

/-- At point `t` the body leaves rows 4000·t … 4000·t + 3999 of the layer in the output's staging buffer: that point's
    write-back is the layer read through the point's block. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero hz2]
  simp only [View.ld_unit_zero (S := S4000x128) hz2, View.ld_unit_zero (S := S128) hz1, View.ld_unit_zero (S := S256x128) hz2,
    View.ld_unit_zero (S := S128x128) hz2]
  obtain ⟨-, -, -, -, -, -, -, -, -, -, e0, e1⟩ := idx_facts t
  funext j
  obtain ⟨p, q, rfl⟩ : ∃ (p : Fin 4000) (q : Fin 128), j = ix2 p q := ⟨j 0, j 1, eq_ix2 j⟩
  show k0_pay1 (iblk m c 0 t) (iblk m c 1 t) (iblk m c 5 t) (iblk m c 4 t) (iblk m c 2 t) (iblk m c 3 t) (iblk m c 3 t) (ix2 p q)
      = G m c (((cfg0.win 6).blk t).view.emb (ix2 p q))
  refine KerPay.point _ _ _ _ _ _ (iblk m c 0 t) (iblk m c 1 t) (iblk m c 5 t) (iblk m c 4 t) (iblk m c 2 t) (iblk m c 3 t) (t.val * 4000)
    (fun p k i h0 h1 => (blk0 m c t p k i h0 h1).trans (emb_at m c i))
    (fun p k i h0 h1 => (blk1 m c t p k i h0 h1).trans (nbr_at m c i))
    (fun k q => (blk2 m c t _ q).trans (w_upper m c k q))
    (fun k q => (blk2 m c t _ q).trans (w_lower m c k q))
    (fun l k => (blk3 m c t l k).trans (w2t_at m c l k))
    (fun q => (blk4 m c t q).trans (bsum_at m c q))
    (fun q => (blk5 m c t q).trans (b2_at m c q))
    p q _ ?_ ?_
  · show win0_6.index t (0 : Fin 2) * 4000 + 1 * p.val = t.val * 4000 + p.val; omega
  · show win0_6.index t (1 : Fin 2) * 128 + 1 * q.val = q.val; omega

/-- An index of the result array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v20).slice (win0_6.rect t)).set ↔ _
  rw [View.set_slice_whole, Rect.mem_set_unit]
  exact Iff.rfl

/-- No row is left out: row `r` of the result lies in the block of point `r / 4000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, e0, e1⟩ := idx_facts ⟨(i 0).val / 4000, ht⟩
  have e0' : win0_6.index ⟨(i 0).val / 4000, ht⟩ (0 : Fin 2) = (i 0).val / 4000 := e0
  refine ⟨⟨(i 0).val / 4000, ht⟩, flush0_6 _, ?_⟩
  rw [mem_blk]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    omega
  | ⟨1, _⟩ =>
    show win0_6.index ⟨(i 0).val / 4000, ht⟩ (1 : Fin 2) * 128 ≤ (i 1).val
      ∧ (i 1).val < win0_6.index ⟨(i 0).val / 4000, ht⟩ (1 : Fin 2) * 128 + 128
    omega

/-- After the run the result array is the layer. -/
theorem final (c : Dev nD) : (dats m 0 c).arrAt 6 cfg0.N = G m c :=
  (dats m 0 c).arrAt_eq_of_cover 6 (G m c) (fun t _ => flushed_eq m c t) cover

/-- The kernel's run re-posted: the result array at the layer of the arguments, the arguments unchanged. -/
theorem run : θ_run defs (onTc (τ := τ) (main (F := Ideal))) ⟨m, fun _ => 0, ρ⟩ fun r => ∀ c : Dev nD,
      r.2.mem ((c : Thread nD τ).loc main_v20) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.KerBlocks

end
-- ==== Proof.RefRun.lean ====
/-
  The reference program's run, read back. Its @main is a straight line of host operations, the leaky-ReLU and the
  select it calls unfolded at the call (each of their values has a buffer of its own); so every execution ends with
  each buffer at the composition of the operations over the launch contents. The result is named here as a single term
  of the eight arguments, in four parts: the neighbour aggregation `nbr` (a row-gather of the embeddings at the
  edges' column ids, scaled by the edge values, scatter-added at the edges' row ids), a dense layer `lin x W b`
  (x · Wᵀ + b, the bias spread over the rows), the leaky ReLU `leaky`, and their combination `out`.
-/
import proofs.«111094_j4982162063610_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two called functions' operations in place of the calls. -/
abbrev ops : List (HloOp τ sig (Elt F)) :=
  [
    unary main_arg1 main_v0 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v1 (broadcastInDim S1600000 ![] bcast_S_S1600000 : (⟨S_, .i32⟩ : BufTy).Contents (Elt F) → (⟨S1600000, .i32⟩ : BufTy).Contents (Elt F)),
    binary main_arg7 main_v1 main_v2 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v3 (broadcastInDim S1600000 ![] bcast_S_S1600000 : (⟨S_, .i32⟩ : BufTy).Contents (Elt F) → (⟨S1600000, .i32⟩ : BufTy).Contents (Elt F)),
    binary main_arg7 main_v3 main_v4 (addi : (⟨S1600000, .i32⟩ : BufTy).Contents (Elt F) → (⟨S1600000, .i32⟩ : BufTy).Contents (Elt F) → (⟨S1600000, .i32⟩ : BufTy).Contents (Elt F)),
    ternary main_v2 main_v4 main_arg7 main_v5 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v5 main_v6 (broadcastInDim S1600000x1 ![0] bcast_S1600000_S1600000x1_0 : (⟨S1600000, .i32⟩ : BufTy).Contents (Elt F) → (⟨S1600000x1, .i32⟩ : BufTy).Contents (Elt F)),
    binary main_arg0 main_v6 main_v7 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v0 main_v8 (broadcastInDim S1600000x128 ![0, 1] bcast_S1600000x1_S1600000x128_0_1 : (⟨S1600000x1, .f32⟩ : BufTy).Contents (Elt F) → (⟨S1600000x128, .f32⟩ : BufTy).Contents (Elt F)),
    binary main_v8 main_v7 main_v9 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v10 (broadcastInDim S100000x128 ![] bcast_S_S100000x128 : (⟨S_, .f32⟩ : BufTy).Contents (Elt F) → (⟨S100000x128, .f32⟩ : BufTy).Contents (Elt F)),
    unary main_arg6 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg2 main_v13 ((transpose S128x128 [1, 0] · transposes_S128x128_S128x128_1_0) : (⟨S128x128, .f32⟩ : BufTy).Contents (Elt F) → (⟨S128x128, .f32⟩ : BufTy).Contents (Elt F)),
    binary main_arg0 main_v13 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v15 (broadcastInDim S1x128 ![1] bcast_S128_S1x128_1 : (⟨S128, .f32⟩ : BufTy).Contents (Elt F) → (⟨S1x128, .f32⟩ : BufTy).Contents (Elt F)),
    unary main_v15 main_v16 (broadcastInDim S100000x128 ![0, 1] bcast_S1x128_S100000x128_0_1 : (⟨S1x128, .f32⟩ : BufTy).Contents (Elt F) → (⟨S100000x128, .f32⟩ : BufTy).Contents (Elt F)),
    binary main_v14 main_v16 main_v17 (addf : (⟨S100000x128, .f32⟩ : BufTy).Contents (Elt F) → (⟨S100000x128, .f32⟩ : BufTy).Contents (Elt F) → (⟨S100000x128, .f32⟩ : BufTy).Contents (Elt F)),
    unary main_arg4 main_v18 ((transpose S128x128 [1, 0] · transposes_S128x128_S128x128_1_0) : (⟨S128x128, .f32⟩ : BufTy).Contents (Elt F) → (⟨S128x128, .f32⟩ : BufTy).Contents (Elt F)),
    binary main_v12 main_v18 main_v19 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S100000x128 ![0, 1] bcast_S1x128_S100000x128_0_1 : (⟨S1x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)),
    binary main_v22 main_arg0 main_v23 (mulf : (⟨S100000x128, .f32⟩ : BufTy).Contents (Elt F) → (⟨S100000x128, .f32⟩ : BufTy).Contents (Elt F) → (⟨S100000x128, .f32⟩ : BufTy).Contents (Elt F)),
    unary main_arg4 main_v24 ((transpose S128x128 [1, 0] · transposes_S128x128_S128x128_1_0) : (⟨S128x128, .f32⟩ : BufTy).Contents (Elt F) → (⟨S128x128, .f32⟩ : BufTy).Contents (Elt F)),
    binary main_v23 main_v24 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    binary main_v17 main_v22 main_v29 (addf : (⟨S100000x128, .f32⟩ : BufTy).Contents (Elt F) → (⟨S100000x128, .f32⟩ : BufTy).Contents (Elt F) → (⟨S100000x128, .f32⟩ : BufTy).Contents (Elt F)),
    binary main_v29 main_v28 main_v30 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S100000x128 ![] bcast_S_S100000x128),
    TRef.binary (.of main_v30 : TRef sig ⟨S100000x128, .f32⟩) main_call0.v0 main_call0.v1 (cmpf .oge),
    TRef.unary (.of main_cst_1 : TRef sig ⟨S_, .f32⟩) main_call0.v2 id,
    TRef.unary main_call0.v2 main_call0.v3 (broadcastInDim S100000x128 ![] bcast_S_S100000x128),
    TRef.binary main_call0.v3 (.of main_v30 : TRef sig ⟨S100000x128, .f32⟩) main_call0.v4 mulf,
    TRef.ternary main_call0.v1 (.of main_v30 : TRef sig ⟨S100000x128, .f32⟩) main_call0.v4 main_call0.call0.v0 select ]

-- forty-two binds re-associated: the rewrite under the chain recurses once per statement
set_option maxRecDepth 2048 in
/-- @main is that straight line: the called functions unfolded at their calls, sequencing re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., unary_bufs_sub .., binary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- The neighbour aggregation: row `adj_cols[e]` of the embeddings (a negative id counted from the end, then
    clamped by the gather), times `adj_vals[e]`, summed into row `adj_rows[e]` of a zero array. -/
def nbr (emb : (⟨S100000x128, .f32⟩ : BufTy).Contents (Elt F)) (vals : (⟨S1600000, .f32⟩ : BufTy).Contents (Elt F))
    (rows cols : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 emb
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- A dense layer: x · Wᵀ + b, the bias spread over the rows. -/
def lin (x : (⟨S100000x128, .f32⟩ : BufTy).Contents (Elt F)) (W : (⟨S128x128, .f32⟩ : BufTy).Contents (Elt F))
    (b : (⟨S128, .f32⟩ : BufTy).Contents (Elt F)) : (⟨S100000x128, .f32⟩ : BufTy).Contents (Elt F) :=
  addf (Host.dotGeneral dot_S100000x128_S128x128_S100000x128_1_0_0_1_n_n none x (transpose S128x128 [1, 0] W transposes_S128x128_S128x128_1_0))
    (broadcastInDim S100000x128 ![0, 1] bcast_S1x128_S100000x128_0_1 (broadcastInDim S1x128 ![1] bcast_S128_S1x128_1 b))

/-- The leaky ReLU with slope `a`: x where x ≥ 0, a · x elsewhere. -/
def leaky (x : (⟨S100000x128, .f32⟩ : BufTy).Contents (Elt F)) (a : (⟨S_, .f32⟩ : BufTy).Contents (Elt F)) :
    (⟨S100000x128, .f32⟩ : BufTy).Contents (Elt F) :=
  select (cmpf .oge x (broadcastInDim S100000x128 ![] bcast_S_S100000x128 (constant S_ .f32 0x00000000#32))) x
    (mulf (broadcastInDim S100000x128 ![] bcast_S_S100000x128 (id a)) x)

/-- The reference's result: the self term, the neighbour term and the interaction term (the neighbour term times the
    embeddings, through the second layer again), summed and passed through the leaky ReLU of slope 0.2. -/
def out (emb : (⟨S100000x128, .f32⟩ : BufTy).Contents (Elt F)) (vals : (⟨S1600000, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (rows cols : (⟨S1600000, .i32⟩ : BufTy).Contents (Elt F)) : (⟨S100000x128, .f32⟩ : BufTy).Contents (Elt F) :=
  leaky (addf (addf (lin emb W1 b1) (lin (nbr emb vals rows cols) W2 b2)) (lin (mulf (lin (nbr emb vals rows cols) W2 b2) emb) W2 b2))
    (constant S_ .f32 0x3E4CCCCD#32)

attribute [local irreducible] Host.gather Host.scatterAdd in
set_option maxRecDepth 8192 in
/-- On every device, for any float values, from any memory with zero counters: every weakly fair execution of @main
    terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v31).trans (by unfold out leaky lin nbr; after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_seq scopedRefs_eq scopedSems_eq defs main (fun _ => ops) main_eq (fun _ => ops_sub) m ρ)

end Cert.ReferenceIdeal.RefRun

end
-- ==== Proof.RefValue.lean ====
/-
  The reference's result, entry by entry: at the ideal values the term `RefRun.out` of the eight arguments is the
  layer `Layer.layer` of the embeddings, the neighbour aggregation, the weights and the biases. Each dense layer is the
  host's matrix product with the transposed weights plus a bias spread over the rows, which at entry (p, q) is
  ∑ k, x (p, k) · W (q, k) + b q; the leaky ReLU reads entrywise; the interaction term's operand is an entrywise product.
-/
import proofs.«111094_j4982162063610_2_alg».proof.Proof.RefRun
import proofs.«111094_j4982162063610_2_alg».proof.Proof.Layer
import proofs.«111094_j4982162063610_2_alg».proof.Proof.LibPlainDot
import Idealize.ShloMosaic.Lib.ValueLayout
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The reference's three matrix products have the plain dimension numbers. -/
theorem dot_plain : dot_S100000x128_S128x128_S100000x128_1_0_0_1_n_n = DotDims.plain 100000 128 128 := rfl

/-- A bias spread over the rows ([128] → [1, 128] → [100000, 128]) reads, at (p, q), the bias at q. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  rw [broadcastInDim_apply ![0, 1] bcast_S1x128_S100000x128_0_1 _ (ix2 p q) (ix2 (0 : Fin 1) q)
    (fun a => match a with | ⟨0, _⟩ => rfl | ⟨1, _⟩ => rfl)]
  exact broadcastInDim_apply ![1] bcast_S128_S1x128_1 b (ix2 (0 : Fin 1) q) (ix1 q) (fun a => match a with | ⟨0, _⟩ => rfl)

/-- A dense layer of the reference at entry (p, q). -/
theorem lin_apply (x : FVec Ideal S100000x128 .f32) (W : FVec Ideal S128x128 .f32) (b : FVec Ideal S128 .f32)
    (p : Fin 100000) (q : Fin 128) :
    RefRun.lin (F := Ideal) x W b (ix2 p q) = Cert.Layer.lin x W b p q := by
  unfold RefRun.lin Cert.Layer.lin
  rw [addf_apply, Cert.Lib.PlainDot.dotGeneral_apply _ dot_plain, bias_apply]
  refine congrArg (· + b (ix1 q)) (Finset.sum_congr rfl fun k _ => ?_)
  rw [transpose_ix2_apply]

/-- The reference's leaky ReLU reads entrywise (its two scalars are splats of the literals). -/
theorem leaky_apply (X : FVec Ideal S100000x128 .f32) (j : S100000x128.Idx) :
    RefRun.leaky (F := Ideal) X (constant (F := Ideal) S_ .f32 0x3E4CCCCD#32) j = Cert.Layer.leaky (X j) := rfl

/-- The interaction term: the second layer applied to the entrywise product of the neighbour term and the embeddings. -/
theorem interact_apply (A emb : FVec Ideal S100000x128 .f32) (W2 : FVec Ideal S128x128 .f32) (b2 : FVec Ideal S128 .f32)
    (p : Fin 100000) (q : Fin 128) :
    Cert.Layer.lin (mulf (RefRun.lin (F := Ideal) A W2 b2) emb) W2 b2 p q = Cert.Layer.interact emb A W2 b2 p q := by
  unfold Cert.Layer.interact
  show (∑ k : Fin 128, (RefRun.lin (F := Ideal) A W2 b2 (ix2 p k) * emb (ix2 p k)) * W2 (ix2 q k)) + b2 (ix1 q) = _
  simp only [lin_apply]

/-- The reference's result is the layer of its arguments and the neighbour aggregation. -/
theorem out_eq (emb : FVec Ideal S100000x128 .f32) (vals : FVec Ideal S1600000 .f32) (W1 : FVec Ideal S128x128 .f32)
    (b1 : FVec Ideal S128 .f32) (W2 : FVec Ideal S128x128 .f32) (b2 : FVec Ideal S128 .f32) (rows cols : IVec S1600000 32) :
    RefRun.out (F := Ideal) emb vals W1 b1 W2 b2 rows cols
      = Cert.Layer.layer emb (RefRun.nbr (F := Ideal) emb vals rows cols) W1 b1 W2 b2 := by
  funext i
  obtain ⟨p, q, rfl⟩ : ∃ (p : Fin 100000) (q : Fin 128), i = ix2 p q := ⟨i 0, i 1, eq_ix2 i⟩
  rw [Cert.Layer.layer_apply]
  unfold RefRun.out
  rw [leaky_apply]
  unfold Cert.Layer.entry
  refine congrArg Cert.Layer.leaky ?_
  rw [addf_apply, addf_apply, lin_apply, lin_apply, lin_apply, interact_apply]

end Cert.ReferenceIdeal.RefValue

end
-- ==== Proof.lean ====
/-
  A graph-convolution layer with interaction term: the kernel against its reference, equal over the extended reals.

  Both programs first aggregate the neighbours on the host, by the same operations in the same order: A = the
  scatter-add, at the edges' row ids, of the embeddings' rows at the edges' column ids scaled by the edge values. The
  reference then computes, entry by entry,

      leaky ( (E·W1ᵀ + b1) + (A·W2ᵀ + b2) + (((A·W2ᵀ + b2) ∘ E)·W2ᵀ + b2) ),

  while the kernel, on each of 25 blocks of 4000 rows, multiplies the joined block [E | A] with the stacked matrix
  [W1ᵀ ; W2ᵀ], adds the summed bias b1 + b2, and adds the same interaction term. A product over the 256 joined columns
  is the sum of the two products over 128 columns each, and (a + c) + (b1 + b2) = (a + b1) + (c + b2) in any commutative
  monoid; rounding to bf16 is the identity on extended reals. So the two results are one function of the arguments,
  the layer `Cert.Layer.layer`, and no finiteness of the inputs is used.

  The kernel's and its idealization's frames are the generated ones; the reference has no kernel, and its frame is its
  run with the result dropped; the idealization rewrote nothing, so nothing is owed for it.
-/
import proofs.«111094_j4982162063610_2_alg».proof.Defs
import proofs.«111094_j4982162063610_2_alg».proof.Proof.Gen.Kernel
import proofs.«111094_j4982162063610_2_alg».proof.Proof.Gen.Kernel.Skeleton
import proofs.«111094_j4982162063610_2_alg».proof.Proof.Gen.Kernel.Launch
import proofs.«111094_j4982162063610_2_alg».proof.Proof.Gen.Kernel.Points
import proofs.«111094_j4982162063610_2_alg».proof.Proof.Gen.Kernel.Frame
import proofs.«111094_j4982162063610_2_alg».proof.Proof.Gen.KernelIdeal
import proofs.«111094_j4982162063610_2_alg».proof.Proof.Gen.KernelIdeal.Skeleton
import proofs.«111094_j4982162063610_2_alg».proof.Proof.Gen.KernelIdeal.Launch
import proofs.«111094_j4982162063610_2_alg».proof.Proof.Gen.KernelIdeal.Points
import proofs.«111094_j4982162063610_2_alg».proof.Proof.Gen.KernelIdeal.Frame
import proofs.«111094_j4982162063610_2_alg».proof.Proof.Gen.KernelIdeal.Value
import proofs.«111094_j4982162063610_2_alg».proof.Proof.Gen.ReferenceIdeal
import proofs.«111094_j4982162063610_2_alg».proof.Proof.Gen.Pre_finite_inputs
import proofs.«111094_j4982162063610_2_alg».proof.Proof.KerBlocks
import proofs.«111094_j4982162063610_2_alg».proof.Proof.RefValue
import Idealize.ShloMosaic.Adequacy
import Idealize.ShloMosaic.Init

noncomputable section

namespace Cert.Proof

open Idealize.ShloMosaic Idealize.SL.Sem

/-- The two programs aggregate the neighbours by the same composition of the same host operations. -/
theorem nbr_eq (emb : FVec Ideal Cert.KernelIdeal.S100000x128 .f32) (vals : FVec Ideal Cert.KernelIdeal.S1600000 .f32)
    (rows cols : IVec Cert.KernelIdeal.S1600000 32) :
    Cert.KernelIdeal.KerHost.nbr (F := Ideal) emb vals rows cols = Cert.ReferenceIdeal.RefRun.nbr (F := Ideal) emb vals rows cols := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments, the kernel's result array ends at the layer of its arguments (its blocks
    cover the array) and the reference's at the same layer of its own (its operations read entry by entry). -/
theorem algebraic : Cert.algebraic_KernelIdeal_ReferenceIdeal := by
  intro m ρ m' ρ' _ hagree
  refine ⟨fun c => Cert.KernelIdeal.KerBlocks.G m c, Cert.KernelIdeal.KerBlocks.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7, Cert.ReferenceIdeal.RefValue.out_eq]
  exact congrArg (fun A => Cert.Layer.layer _ A _ _ _ _) (nbr_eq _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
